-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  main_v3
-- ==== Kernel.lean ====
abbrev S8x2048x3 : Shape := ⟨3, ![8, 2048, 3]⟩
abbrev S8x3x2048 : Shape := ⟨3, ![8, 3, 2048]⟩
abbrev S8x2048x2048 : Shape := ⟨3, ![8, 2048, 2048]⟩
abbrev S1x512x3 : Shape := ⟨3, ![1, 512, 3]⟩
abbrev S1x3x2048 : Shape := ⟨3, ![1, 3, 2048]⟩
abbrev S1x512x2048 : Shape := ⟨3, ![1, 512, 2048]⟩
abbrev S1x512x1 : Shape := ⟨3, ![1, 512, 1]⟩
abbrev S512x1 : Shape := ⟨2, ![512, 1]⟩
abbrev S1x1x2048 : Shape := ⟨3, ![1, 1, 2048]⟩
abbrev S1x2048 : Shape := ⟨2, ![1, 2048]⟩
abbrev S512x2048 : Shape := ⟨2, ![512, 2048]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x3, .f32⟩
  | .hbm, ⟨1, _⟩ => ⟨S8x3x2048, .f32⟩
  | .hbm, ⟨2, _⟩ => ⟨S8x2048x2048, .f32⟩
  | .hbm, ⟨3, _⟩ => ⟨S8x2048x2048, .i32⟩
  | .hbm, ⟨4, _⟩ => ⟨S_, .i32⟩
  | .hbm, ⟨5, _⟩ => ⟨S8x2048x2048, .i32⟩
  | .hbm, ⟨6, _⟩ => ⟨S8x2048x2048, .i1⟩
  | .hbm, ⟨7, _⟩ => ⟨S8x2048x2048, .i1⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .i32⟩
  | .local _ .vmem, ⟨7, _⟩ => ⟨S1x512x2048, .i32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8x2048x3_S8x3x2048_0_2_1 : S8x2048x3.Transposes [0, 2, 1] S8x3x2048
  inb_S1x512x3_S1x512x1_0_0_0 : ∀ a, (![0, 0, 0] : Fin 3 → Nat) a + S1x512x1.size a ≤ S1x512x3.size a
  h_S1x512x1 : 0 < S1x512x1.numel
  shapeCasts_S1x512x1_S512x1 : S1x512x1.ShapeCasts S512x1
  inb_S1x512x3_S1x512x1_0_0_1 : ∀ a, (![0, 0, 1] : Fin 3 → Nat) a + S1x512x1.size a ≤ S1x512x3.size a
  inb_S1x512x3_S1x512x1_0_0_2 : ∀ a, (![0, 0, 2] : Fin 3 → Nat) a + S1x512x1.size a ≤ S1x512x3.size a
  inb_S1x3x2048_S1x1x2048_0_0_0 : ∀ a, (![0, 0, 0] : Fin 3 → Nat) a + S1x1x2048.size a ≤ S1x3x2048.size a
  h_S1x1x2048 : 0 < S1x1x2048.numel
  shapeCasts_S1x1x2048_S1x2048 : S1x1x2048.ShapeCasts S1x2048
  inb_S1x3x2048_S1x1x2048_0_1_0 : ∀ a, (![0, 1, 0] : Fin 3 → Nat) a + S1x1x2048.size a ≤ S1x3x2048.size a
  inb_S1x3x2048_S1x1x2048_0_2_0 : ∀ a, (![0, 2, 0] : Fin 3 → Nat) a + S1x1x2048.size a ≤ S1x3x2048.size a
  broadcasts_S512x1_S512x2048 : S512x1.Broadcasts S512x2048
  broadcasts_S1x2048_S512x2048 : S1x2048.Broadcasts S512x2048
  iota_S512x2048_d0_w32 : S512x2048.Iotas .tc 32 [0]
  iota_S512x2048_d1_w32 : S512x2048.Iotas .tc 32 [1]
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  natLt_1_32 : 1 < 32
  bcast_S_S8x2048x2048 : S_.BroadcastsInDim S8x2048x2048 (![] : Fin 0 → Fin S8x2048x2048.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x2048x3.size a
  hwx0_0 : ∀ i : grid0.Coords, EltTy.bits .f32 = 32 ∨ (Rect.block (s := S8x2048x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S8x3x2048.size a
  hwx0_1 : ∀ i : grid0.Coords, EltTy.bits .f32 = 32 ∨ (Rect.block (s := S8x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .f32 = 32 ∨ (Rect.block (s := S8x2048x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .i32 = 32 ∨ (Rect.block (s := S8x2048x2048) S1x512x2048.size (cc0_transform_3 i) (hinb0_3 i)).WholeWords (EltTy.packing .i32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S2048x2048 : Shape := ⟨2, ![2048, 2048]⟩
abbrev S1x2048x2048 : Shape := ⟨3, ![1, 2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x1x3, .f32⟩
  | .hbm, ⟨2, _⟩ => ⟨S8x1x2048x3, .f32⟩
  | .hbm, ⟨3, _⟩ => ⟨S8x2048x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S_, .f32⟩
  | .hbm, ⟨8, _⟩ => ⟨S8x2048x2048, .f32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S1x2048x2048, .i1⟩
  | .hbm, ⟨16, _⟩ => ⟨S_, .f32⟩
  | .hbm, ⟨17, _⟩ => ⟨S8x2048x2048, .f32⟩
  | .hbm, ⟨18, _⟩ => ⟨S8x2048x2048, .i1⟩
  | .hbm, ⟨19, _⟩ => ⟨S1x2048x2048, .i1⟩
  | .hbm, ⟨20, _⟩ => ⟨S8x2048x2048, .i1⟩
  | .hbm, ⟨21, _⟩ => ⟨S8x2048x2048, .i1⟩
  | .hbm, ⟨22, _⟩ => ⟨S_, .f32⟩
  | .hbm, ⟨23, _⟩ => ⟨S8x2048x2048, .f32⟩
  | .hbm, ⟨24, _⟩ => ⟨S8x2048x2048, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_call0_v0 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S_S8x2048x2048 : S_.BroadcastsInDim S8x2048x2048 (![] : Fin 0 → Fin S8x2048x2048.rank)
  bcast_S1x2048x2048_S8x2048x2048_0_1_2 : S1x2048x2048.BroadcastsInDim S8x2048x2048 (![0, 1, 2] : Fin 3 → Fin S8x2048x2048.rank)

variable [Facts₀]

class Facts : Prop extends Facts₀ where

variable [Facts]
-- ==== Proof.PairSpec.lean ====
/-
  The two results as whole-array functions of the positions p : [8, 2048, 3], index by index, on the extended reals.

  For system b and atoms i, j:  dist p b i j = ((x_i - x_j)^2 + (y_i - y_j)^2) + (z_i - z_j)^2, the squared distance;
  near p b i j is the bit "dist < 25 and i ≠ j"; the first result holds dist where near is set and 0 elsewhere, the
  second result holds near.

  Also here, because they mention no program: a sum of three terms started from the zero word is the three terms added
  left to right (the only law of the extended reals the certificate uses: 0 + x = x; no subtraction is cancelled and
  nothing is distributed, so no finiteness is needed); and the facts about 32-bit words that identify the two spellings
  of i ≠ j (the comparison of a row counter with a column counter shifted back by a multiple of 512, and the comparison
  of two counters), and that a bit widened to a word and compared with zero is that bit.
-/
import Idealize.ShloMosaic.PureOps.Ideal
import Idealize.ShloMosaic.PureOps.Ideal.Laws
import Idealize.ShloMosaic.Lib.ValueIdx

noncomputable section

namespace Cert.PairSpec

open Idealize.ShloMosaic Idealize.ShloMosaic.ValueIdx

/-- The positions' shape and the results' shape. -/
abbrev Pos : Shape := ⟨3, ![8, 2048, 3]⟩
abbrev Pairs : Shape := ⟨3, ![8, 2048, 2048]⟩

/-- ((a0 - b0)^2 + (a1 - b1)^2) + (a2 - b2)^2, the squares written as products and added in this order. -/
def sq3 (a0 a1 a2 b0 b1 b2 : EReal) : EReal :=
  ((a0 - b0) * (a0 - b0) + (a1 - b1) * (a1 - b1)) + (a2 - b2) * (a2 - b2)

/-- The bit "i ≠ j" of two natural numbers. -/
def distinct (i j : ℕ) : BitVec 1 := BitVec.ofBool (decide (i ≠ j))

/-- The bit "d < 25 and o": the ordered comparison with the word of 25.0, and-ed with the bit o. -/
def nearBit (d : EReal) (o : BitVec 1) : BitVec 1 :=
  IntOp.andi (FloatOps.cmpf (F := Ideal) (φ := .f32) .olt d (Ideal.ofBits .f32 0x41C80000#32)) o

/-- d where the bit is set, the zero word's value elsewhere. -/
def keep (n : BitVec 1) (d : EReal) : EReal := Scalar.select n d (Ideal.ofBits .f32 0x00000000#32)

/-- The squared distance between atoms i and j of system b. -/
def dist (p : Pos.Idx → EReal) (b : Fin 8) (i j : Fin 2048) : EReal :=
  sq3 (p (ix3 b i (0 : Fin 3))) (p (ix3 b i (1 : Fin 3))) (p (ix3 b i (2 : Fin 3)))
    (p (ix3 b j (0 : Fin 3))) (p (ix3 b j (1 : Fin 3))) (p (ix3 b j (2 : Fin 3)))

/-- The neighbour bit: closer than the cutoff, and not the same atom. -/
def near (p : Pos.Idx → EReal) (b : Fin 8) (i j : Fin 2048) : BitVec 1 :=
  nearBit (dist p b i j) (distinct i.val j.val)

/-- The first result: the squared distances of the neighbours, zero elsewhere. -/
def maskedDist (p : Pos.Idx → EReal) : Pairs.Idx → EReal := fun q => keep (near p (q 0) (q 1) (q 2)) (dist p (q 0) (q 1) (q 2))

/-- The second result: the neighbour bits. -/
def nearMask (p : Pos.Idx → EReal) : Pairs.Idx → BitVec 1 := fun q => near p (q 0) (q 1) (q 2)

theorem maskedDist_ix3 (p : Pos.Idx → EReal) (b : Fin 8) (i j : Fin 2048) :
    maskedDist p (ix3 b i j) = keep (near p b i j) (dist p b i j) := rfl

theorem nearMask_ix3 (p : Pos.Idx → EReal) (b : Fin 8) (i j : Fin 2048) :
    nearMask p (ix3 b i j) = near p b i j := rfl

/-! ## The one law of the extended reals -/

/-- A sum over three terms started from the zero word: the three terms, added left to right. -/
theorem zero_add_sum3 (f : Fin 3 → EReal) :
    Ideal.ofBits .f32 0x00000000#32 + ∑ k : Fin 3, f k = (f 0 + f 1) + f 2 := by
  rw [Ideal.ofBits_zero_f32, zero_add, Fin.sum_univ_three]

/-! ## Words -/

theorem cmpi_eq {w : ℕ} (x y : BitVec w) : IntOp.cmpi .eq x y = BitVec.ofBool (x == y) := rfl

theorem ofNat_eq_iff (i j : ℕ) (hi : i < 2 ^ 32) (hj : j < 2 ^ 32) : BitVec.ofNat 32 i = BitVec.ofNat 32 j ↔ i = j := by
  constructor
  · intro h
    have := congrArg BitVec.toNat h
    simp only [BitVec.toNat_ofNat] at this
    omega
  · rintro rfl; rfl

/-- The complement of "row counter plus zero equals column counter" is i ≠ j. -/
theorem not_counters_eq (i j : ℕ) (hi : i < 2048) (hj : j < 2048) :
    ~~~(IntOp.cmpi .eq (IntOp.addi (BitVec.ofNat 32 i) 0#32) (BitVec.ofNat 32 j)) = distinct i j := by
  rw [cmpi_eq]
  unfold IntOp.addi distinct
  rw [BitVec.add_zero]
  by_cases h : i = j
  · subst h
    rw [beq_self_eq_true, decide_eq_false (fun hne : i ≠ i => hne rfl)]
    decide
  · have h' : BitVec.ofNat 32 i ≠ BitVec.ofNat 32 j := fun e => h ((ofNat_eq_iff i j (by omega) (by omega)).mp e)
    rw [beq_eq_false_iff_ne.mpr h', decide_eq_true (show i ≠ j from h)]
    decide

/-- The column counter c, shifted back by 512 times the tile number it, equals the row counter r inside the tile
    exactly when c is the row 512·it + r of the array; flipped by xor 1 this is 512·it + r ≠ c. -/
theorem shifted_counters_ne (it r c : ℕ) (hit : it < 4) (hr : r < 512) (hc : c < 2048) :
    IntOp.xori (IntOp.cmpi .eq (IntOp.subi (BitVec.ofNat 32 c) (Scalar.muli (BitVec.ofNat 32 it) 512#32)) (BitVec.ofNat 32 r)) 1#1
      = distinct (it * 512 + r) c := by
  rw [cmpi_eq]
  unfold IntOp.xori IntOp.subi Scalar.muli IntOp.muli distinct
  have key : (BitVec.ofNat 32 c - BitVec.ofNat 32 it * 512#32 = BitVec.ofNat 32 r) ↔ it * 512 + r = c := by
    constructor
    · intro h
      have := congrArg BitVec.toNat h
      simp only [BitVec.toNat_sub, BitVec.toNat_mul, BitVec.toNat_ofNat] at this
      omega
    · rintro rfl
      apply BitVec.eq_of_toNat_eq
      simp only [BitVec.toNat_sub, BitVec.toNat_mul, BitVec.toNat_ofNat]
      omega
  by_cases h : it * 512 + r = c
  · rw [beq_iff_eq.mpr (key.mpr h), decide_eq_false (fun hne : it * 512 + r ≠ c => hne h)]
    decide
  · have h' : BitVec.ofNat 32 c - BitVec.ofNat 32 it * 512#32 ≠ BitVec.ofNat 32 r := fun e => h (key.mp e)
    rw [beq_eq_false_iff_ne.mpr h', decide_eq_true (show it * 512 + r ≠ c from h)]
    decide

/-- A bit widened to a 32-bit word and compared with zero is the bit. -/
theorem widen_ne_zero (b : BitVec 1) : IntOp.cmpi .ne (b.setWidth 32) 0#32 = b := by
  by_cases h : b = 1#1
  · subst h; decide
  · rw [eq_zero_of_ne_one h]; decide

end Cert.PairSpec

end
-- ==== Proof.RefPairs.lean ====
/-
  The reference computes the two whole-array functions of PairSpec.

  Its squared distance at (b, i, j) is the zero word plus the sum over the three coordinates k of
  (p(b,i,k) - p(b,j,k))^2: the two broadcasts read p at (b, i, k) and at (b, j, k), and the sum started at zero is the
  three squares added left to right. Its diagonal is the comparison of a row counter plus zero with a column counter,
  complemented: the bit i ≠ j. The results are the select on the and of the two bits, and that and.
-/
import proofs.«182184_j455266533928_2_alg».proof.Proof.Gen.ReferenceIdeal.Read
import proofs.«182184_j455266533928_2_alg».proof.Proof.PairSpec

noncomputable section

namespace Cert.ReferenceIdeal.RefValue

open Cert.ReferenceIdeal Cert.ReferenceIdeal.Read Cert.PairSpec Idealize.ShloMosaic Idealize.ShloMosaic.ValueIdx

/-- Through the two broadcasts and the reduction's index, the left operand of the difference reads atom i. -/
theorem idx_left (b : Fin 8) (i j : Fin 2048) (k : Fin 3) :
    idx_main_v0 (idx_main_v2 (idx_main_v6 (ix3 b i j) k)) = ix3 b i k :=
  funext fun a => Fin.ext (by match a with | ⟨0, _⟩ => rfl | ⟨1, _⟩ => rfl | ⟨2, _⟩ => rfl)

/-- And the right operand reads atom j. -/
theorem idx_right (b : Fin 8) (i j : Fin 2048) (k : Fin 3) :
    idx_main_v1 (idx_main_v3 (idx_main_v6 (ix3 b i j) k)) = ix3 b j k :=
  funext fun a => Fin.ext (by match a with | ⟨0, _⟩ => rfl | ⟨1, _⟩ => rfl | ⟨2, _⟩ => rfl)

/-- The reference's sum of squared coordinate differences is the squared distance. -/
theorem dist_apply (p : Pos.Idx → EReal) (b : Fin 8) (i j : Fin 2048) :
    val_main_v6 (F := Ideal) p (ix3 b i j) = dist p b i j := by
  rw [val_main_v6_apply]
  simp only [val_main_v5_apply, val_main_v4_apply, val_main_v2_apply, val_main_v3_apply, val_main_v0_apply,
    val_main_v1_apply, val_main_cst_apply, Ideal.subf_def, Ideal.mulf_def, Ideal.ofBits_def, idx_left, idx_right]
  rw [zero_add_sum3]
  rfl

/-- The reference's mask is the neighbour bit. -/
theorem near_apply (p : Pos.Idx → EReal) (b : Fin 8) (i j : Fin 2048) :
    val_main_v17 (F := Ideal) p (ix3 b i j) = near p b i j := by
  rw [val_main_v17_apply, val_main_v14_apply, val_main_v16_apply, val_main_v15_apply, val_main_v12_apply,
    val_main_v11_apply, val_main_v10_apply, val_main_v7_apply, val_main_v8_apply, val_main_v9_apply, val_main_c_apply,
    val_main_v13_apply, val_main_cst_0_apply, dist_apply]
  show IntOp.andi (FloatOps.cmpf (F := Ideal) (φ := .f32) .olt (dist p b i j) (FloatOps.ofBits .f32 0x41C80000#32))
      (~~~(IntOp.cmpi .eq (IntOp.addi (BitVec.ofNat 32 i.val) 0#32) (BitVec.ofNat 32 j.val))) = _
  rw [not_counters_eq i.val j.val i.isLt j.isLt]
  rfl

/-- The reference's first result keeps the squared distance where the neighbour bit is set. -/
theorem masked_apply (p : Pos.Idx → EReal) (b : Fin 8) (i j : Fin 2048) :
    val_main_v18 (F := Ideal) p (ix3 b i j) = keep (near p b i j) (dist p b i j) := by
  rw [val_main_v18_apply, near_apply, dist_apply, val_main_call0_v0_apply, val_main_cst_1_apply]
  rfl

/-- The reference's first result, as a whole array. -/
theorem masked_eq (p : Pos.Idx → EReal) : val_main_v18 (F := Ideal) p = maskedDist p := by
  funext q
  obtain ⟨b, i, j, rfl⟩ : ∃ (b : Fin 8) (i j : Fin 2048), q = ix3 b i j := ⟨q 0, q 1, q 2, eq_ix3 q⟩
  rw [masked_apply, maskedDist_ix3]

/-- The reference's second result, as a whole array. -/
theorem near_eq (p : Pos.Idx → EReal) : val_main_v17 (F := Ideal) p = nearMask p := by
  funext q
  obtain ⟨b, i, j, rfl⟩ : ∃ (b : Fin 8) (i j : Fin 2048), q = ix3 b i j := ⟨q 0, q 1, q 2, eq_ix3 q⟩
  rw [near_apply, nearMask_ix3]

end Cert.ReferenceIdeal.RefValue

end
-- ==== Proof.KernelBlock.lean ====
/-
  What the kernel's body stores, read at an index of its block.

  At one grid point the body holds a [1, 512, 3] block x0 of the positions (512 consecutive atoms i of one system) and
  a [1, 3, 2048] block x1 of the transposed positions (all atoms j of that system, one row per coordinate). Row r and
  column c of what it computes depend on x0 at (0, r, k) and on x1 at (0, k, c), k = 0, 1, 2: the three columns of x0
  are spread along the rows, the three rows of x1 along the columns, the differences are squared and added. The
  diagonal test compares the column counter, shifted back by 512 times the second grid coordinate, with the row
  counter. The first store keeps the sum where the mask bit is set; the second stores the bit widened to a word.
-/
import proofs.«182184_j455266533928_2_alg».proof.Proof.FrameKernelIdeal
import proofs.«182184_j455266533928_2_alg».proof.Proof.PairSpec
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Cert.KernelIdeal.GenP Cert.PairSpec
open Idealize.ShloMosaic Idealize.ShloMosaic.ValueIdx

/-! ## Layout: a column spread along the rows -/

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A loaded [1, 512, 1] column, viewed [512, 1] and spread to [512, 2048], reads its row r. -/
theorem col_apply (v : Vec Ideal S1x512x1 .f32) (r : Fin 512) (c : Fin 2048) :
    broadcastTo S512x2048 (shapeCast S512x1 v shapeCasts_S1x512x1_S512x1) broadcasts_S512x1_S512x2048 (ix2 r c)
      = v (ix3 (0 : Fin 1) r (0 : Fin 1)) :=
  (broadcastTo_a1_ab_apply _ _ r c).trans (shapeCast_1ab_ab_apply v _ r (0 : Fin 1))

/-- A loaded [1, 1, 2048] row, viewed [1, 2048] and spread to [512, 2048], reads its column c. -/
theorem row_apply (v : Vec Ideal S1x1x2048 .f32) (r : Fin 512) (c : Fin 2048) :
    broadcastTo S512x2048 (shapeCast S1x2048 v shapeCasts_S1x1x2048_S1x2048) broadcasts_S1x2048_S512x2048 (ix2 r c)
      = v (ix3 (0 : Fin 1) (0 : Fin 1) c) :=
  (broadcastTo_1b_ab_apply _ _ r c).trans (shapeCast_1ab_ab_apply v _ (0 : Fin 1) c)

/-! ## The arithmetic -/

/-- The sum of the three squared differences at (r, c). -/
theorem sum_apply (v0 v2 v4 : Vec Ideal S1x512x1 .f32) (v6 v8 v10 : Vec Ideal S1x1x2048 .f32) (r : Fin 512) (c : Fin 2048) :
    k0_pay3 v0 v2 v4 v6 v8 v10 (ix2 r c)
      = sq3 (v0 (ix3 (0 : Fin 1) r (0 : Fin 1))) (v2 (ix3 (0 : Fin 1) r (0 : Fin 1))) (v4 (ix3 (0 : Fin 1) r (0 : Fin 1)))
          (v6 (ix3 (0 : Fin 1) (0 : Fin 1) c)) (v8 (ix3 (0 : Fin 1) (0 : Fin 1) c)) (v10 (ix3 (0 : Fin 1) (0 : Fin 1) c)) := by
  unfold k0_pay3
  simp only [addf_apply, mulf_apply, subf_apply]
  rw [col_apply v0 r c, col_apply v2 r c, col_apply v4 r c, row_apply v6 r c, row_apply v8 r c, row_apply v10 r c]
  rfl

/-- The mask bit at (r, c): the sum is below the cutoff, and column c is not row 512·(i 1) + r of the array. -/
theorem bit_apply (i : grid0.Coords) (v0 v2 v4 : Vec Ideal S1x512x1 .f32) (v6 v8 v10 : Vec Ideal S1x1x2048 .f32)
    (r : Fin 512) (c : Fin 2048) :
    k0_pay4 i v0 v2 v4 v6 v8 v10 (ix2 r c)
      = nearBit (k0_pay3 v0 v2 v4 v6 v8 v10 (ix2 r c)) (distinct ((i 1).val * 512 + r.val) c.val) := by
  unfold k0_pay4
  dsimp only
  show IntOp.andi (FloatOps.cmpf (F := Ideal) (φ := .f32) .olt (k0_pay3 v0 v2 v4 v6 v8 v10 (ix2 r c)) (Scalar.ofBits .f32 0x41C80000#32))
      (IntOp.xori (IntOp.cmpi .eq (IntOp.subi (iota .tc S512x2048 32 [1] iota_S512x2048_d1_w32 (ix2 r c))
          (Scalar.muli (BitVec.ofNat 32 (i 1).val) 512#32)) (iota .tc S512x2048 32 [0] iota_S512x2048_d0_w32 (ix2 r c))) 1#1) = _
  rw [iota_single_apply, iota_single_apply]
  show IntOp.andi _ (IntOp.xori (IntOp.cmpi .eq (IntOp.subi (BitVec.ofNat 32 c.val)
      (Scalar.muli (BitVec.ofNat 32 (i 1).val) 512#32)) (BitVec.ofNat 32 r.val)) 1#1) = _
  rw [shifted_counters_ne (i 1).val r.val c.val (show (i 1).val < 4 from (i 1).isLt) r.isLt c.isLt]
  rfl

/-! ## The two stored values -/

/-- The first store at (u, r, c): the sum where the bit is set, the zero word elsewhere. -/
theorem kept_apply (v25 : FVec Ideal S512x2048 .f32) (v35 : IVec S512x2048 1) (z : Ideal .f32)
    (u : Fin 1) (r : Fin 512) (c : Fin 2048) :
    k0_pay1 v25 v35 z (ix3 u r c) = Scalar.select (v35 (ix2 r c)) (v25 (ix2 r c)) z := by
  unfold k0_pay1
  exact shapeCast_ab_1ab_apply _ _ u r c

/-- The second store at (u, r, c): the bit widened to a word. -/
theorem word_apply (v35 : IVec S512x2048 1) (u : Fin 1) (r : Fin 512) (c : Fin 2048) :
    k0_pay2 v35 (ix3 u r c) = (v35 (ix2 r c)).setWidth 32 := by
  unfold k0_pay2
  exact shapeCast_ab_1ab_apply _ _ u r c

/-! ## The loads -/

/-- Column k of the positions' block: the load through the [1, 512, 1] rectangle at lane k reads x0 at (0, r, k). -/
theorem ld_x (x0 : Vec Ideal S1x512x3 .f32) (r : Fin 512) :
    View.ld x0 r0_0 (ix3 (0 : Fin 1) r (0 : Fin 1)) = x0 (ix3 (0 : Fin 1) r (0 : Fin 3)) := by
  show x0 (r0_0.idx (ix3 (0 : Fin 1) r (0 : Fin 1))) = _
  refine congrArg x0 (funext fun a => Fin.ext ?_)
  match a with
  | ⟨0, _⟩ => rfl
  | ⟨1, _⟩ => show 0 + 1 * r.val = r.val; omega
  | ⟨2, _⟩ => rfl
theorem ld_y (x0 : Vec Ideal S1x512x3 .f32) (r : Fin 512) :
    View.ld x0 r0_1 (ix3 (0 : Fin 1) r (0 : Fin 1)) = x0 (ix3 (0 : Fin 1) r (1 : Fin 3)) := by
  show x0 (r0_1.idx (ix3 (0 : Fin 1) r (0 : Fin 1))) = _
  refine congrArg x0 (funext fun a => Fin.ext ?_)
  match a with
  | ⟨0, _⟩ => rfl
  | ⟨1, _⟩ => show 0 + 1 * r.val = r.val; omega
  | ⟨2, _⟩ => rfl
theorem ld_z (x0 : Vec Ideal S1x512x3 .f32) (r : Fin 512) :
    View.ld x0 r0_2 (ix3 (0 : Fin 1) r (0 : Fin 1)) = x0 (ix3 (0 : Fin 1) r (2 : Fin 3)) := by
  show x0 (r0_2.idx (ix3 (0 : Fin 1) r (0 : Fin 1))) = _
  refine congrArg x0 (funext fun a => Fin.ext ?_)
  match a with
  | ⟨0, _⟩ => rfl
  | ⟨1, _⟩ => show 0 + 1 * r.val = r.val; omega
  | ⟨2, _⟩ => rfl

/-- Row k of the transposed positions' block: the load through the [1, 1, 2048] rectangle at row k reads x1 at (0, k, c). -/
theorem ld_xt (x1 : Vec Ideal S1x3x2048 .f32) (c : Fin 2048) :
    View.ld x1 r0_3 (ix3 (0 : Fin 1) (0 : Fin 1) c) = x1 (ix3 (0 : Fin 1) (0 : Fin 3) c) := by
  show x1 (r0_3.idx (ix3 (0 : Fin 1) (0 : Fin 1) c)) = _
  refine congrArg x1 (funext fun a => Fin.ext ?_)
  match a with
  | ⟨0, _⟩ => rfl
  | ⟨1, _⟩ => rfl
  | ⟨2, _⟩ => show 0 + 1 * c.val = c.val; omega
theorem ld_yt (x1 : Vec Ideal S1x3x2048 .f32) (c : Fin 2048) :
    View.ld x1 r0_4 (ix3 (0 : Fin 1) (0 : Fin 1) c) = x1 (ix3 (0 : Fin 1) (1 : Fin 3) c) := by
  show x1 (r0_4.idx (ix3 (0 : Fin 1) (0 : Fin 1) c)) = _
  refine congrArg x1 (funext fun a => Fin.ext ?_)
  match a with
  | ⟨0, _⟩ => rfl
  | ⟨1, _⟩ => rfl
  | ⟨2, _⟩ => show 0 + 1 * c.val = c.val; omega
theorem ld_zt (x1 : Vec Ideal S1x3x2048 .f32) (c : Fin 2048) :
    View.ld x1 r0_5 (ix3 (0 : Fin 1) (0 : Fin 1) c) = x1 (ix3 (0 : Fin 1) (2 : Fin 3) c) := by
  show x1 (r0_5.idx (ix3 (0 : Fin 1) (0 : Fin 1) c)) = _
  refine congrArg x1 (funext fun a => Fin.ext ?_)
  match a with
  | ⟨0, _⟩ => rfl
  | ⟨1, _⟩ => rfl
  | ⟨2, _⟩ => show 0 + 1 * c.val = c.val; omega

/-! ## What the body leaves in the two output blocks -/

theorem hz : (![0, 0, 0] : Fin 3 → Nat) = fun _ => 0 := funext fun a => by fin_cases a <;> rfl

/-- The squared distance the body forms at (r, c) from its two blocks. -/
def blockDist (x0 : Vec Ideal S1x512x3 .f32) (x1 : Vec Ideal S1x3x2048 .f32) (r : Fin 512) (c : Fin 2048) : EReal :=
  sq3 (x0 (ix3 (0 : Fin 1) r (0 : Fin 3))) (x0 (ix3 (0 : Fin 1) r (1 : Fin 3))) (x0 (ix3 (0 : Fin 1) r (2 : Fin 3)))
    (x1 (ix3 (0 : Fin 1) (0 : Fin 3) c)) (x1 (ix3 (0 : Fin 1) (1 : Fin 3) c)) (x1 (ix3 (0 : Fin 1) (2 : Fin 3) c))

/-- The bit the body forms at (r, c) at grid point i. -/
def blockBit (i : grid0.Coords) (x0 : Vec Ideal S1x512x3 .f32) (x1 : Vec Ideal S1x3x2048 .f32) (r : Fin 512) (c : Fin 2048) : BitVec 1 :=
  nearBit (blockDist x0 x1 r c) (distinct ((i 1).val * 512 + r.val) c.val)

/-- The first output block after the body. -/
theorem out_dist (i : grid0.Coords) (x0 : Vec Ideal S1x512x3 .f32) (x1 : Vec Ideal S1x3x2048 .f32)
    (u : Fin 1) (r : Fin 512) (c : Fin 2048) :
    out0_2 i x0 x1 (ix3 u r c) = keep (blockBit i x0 x1 r c) (blockDist x0 x1 r c) := by
  unfold out0_2
  rw [View.canon_unit_zero hz, kept_apply, bit_apply, sum_apply, ld_x, ld_y, ld_z, ld_xt, ld_yt, ld_zt]
  rfl

/-- The second output block after the body. -/
theorem out_bit (i : grid0.Coords) (x0 : Vec Ideal S1x512x3 .f32) (x1 : Vec Ideal S1x3x2048 .f32)
    (u : Fin 1) (r : Fin 512) (c : Fin 2048) :
    out0_3 i x0 x1 (ix3 u r c) = (blockBit i x0 x1 r c).setWidth 32 := by
  unfold out0_3
  rw [View.canon_unit_zero hz, word_apply, bit_apply, sum_apply, ld_x, ld_y, ld_z, ld_xt, ld_yt, ld_zt]
  rfl

end Cert.KernelIdeal.Block

end
-- ==== Proof.KernelPairs.lean ====
/-
  From the blocks to the whole arrays, and the kernel's run.

  Grid point t = (b, it) of the 8 × 4 grid holds rows 512·it … 512·it + 511 of system b: its positions' block is those
  512 atoms, its transposed block is all 2048 atoms of system b, and it writes back rows 512·it … of the two results
  for system b. The transposed array is the positions with the last two axes exchanged, so the block's entry (0, k, j)
  is p(b, j, k). Hence what point t writes back is block t of the whole-array functions of PairSpec; the 32 blocks
  tile the [8, 2048, 2048] arrays (row i of system b belongs to the point (b, i / 512)), so after the region the first
  result is maskedDist p and the word array holds the neighbour bits widened. The lines after the region compare the
  words with zero, which gives back the bits.
-/
import proofs.«182184_j455266533928_2_alg».proof.Proof.KernelBlock
import Idealize.ShloMosaic.Lib.StableHlo.Run

set_option maxRecDepth 16384

noncomputable section

namespace Cert.KernelIdeal.Pairs

open Cert.KernelIdeal Cert.KernelIdeal.Gen Cert.KernelIdeal.GenP Cert.KernelIdeal.Block Cert.PairSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The positions on core c, as launched. -/
abbrev pos (c : Dev nD) : Pos.Idx → EReal := m ((c : Thread nD τ).loc main_arg0)

/-! ## The two input arrays as the region finds them -/

/-- The transposed positions: the one host line before the region. -/
theorem V_transposed (c : Dev nD) :
    (V m c main_v0 : S8x3x2048.Idx → EReal)
      = transpose S8x3x2048 [0, 2, 1] (pos m c) transposes_S8x2048x3_S8x3x2048_0_2_1 := by
  show StableHlo.after hostOps0 (fun b => m (c, b)) (Proc.devRef .tc main_v0) = _
  after_results <;> rfl

/-- Entry (b, k, j) of the transposed array is p(b, j, k). -/
theorem V_transposed_apply (c : Dev nD) (b : Fin 8) (k : Fin 3) (j : Fin 2048) :
    (V m c main_v0 : S8x3x2048.Idx → EReal) (ix3 b k j) = pos m c (ix3 b j k) := by
  rw [V_transposed]
  exact transpose_ix3_021_apply _ _ b k j

/-! ## The index maps over the grid -/

/-- The printed index maps, decided over the 32 points: the positions' block and the two results' blocks move together
    (system, row tile, 0), the transposed block with the system only; the body's second grid coordinate is the row
    tile; and the ranges. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_3.index t (0 : Fin 3) = win0_2.index t (0 : Fin 3) ∧ win0_3.index t (1 : Fin 3) = win0_2.index t (1 : Fin 3)
    ∧ win0_3.index t (2 : Fin 3) = 0
    ∧ win0_2.index t (2 : Fin 3) = 0 ∧ win0_2.index t (0 : Fin 3) < 8 ∧ win0_2.index t (1 : Fin 3) < 4
    ∧ (grid0.coords t 1).val = win0_2.index t (1 : Fin 3) :=
  (by decide +kernel : ∀ t : Fin grid0.N, _)

/-- Every (system, row tile) is some point's. -/
theorem idx_onto : ∀ (q0 : Fin 8) (q1 : Fin 4), ∃ t : Fin cfg0.N,
    win0_2.index t (0 : Fin 3) = q0.val ∧ win0_2.index t (1 : Fin 3) = q1.val :=
  (by decide +kernel : ∀ (q0 : Fin 8) (q1 : Fin 4), ∃ t : Fin grid0.N,
    win0_2.index t (0 : Fin 3) = q0.val ∧ win0_2.index t (1 : Fin 3) = q1.val)

/-! ## The input blocks at a point -/

/-- The positions' block at point t: atom r of the tile, coordinate k. -/
theorem iblk_pos (c : Dev nD) (t : Fin cfg0.N) (b : Fin 8) (it : Fin 4)
    (hb : win0_2.index t (0 : Fin 3) = b.val) (hit : win0_2.index t (1 : Fin 3) = it.val)
    (r : Fin 512) (k : Fin 3) :
    iblk m c 0 t (ix3 (0 : Fin 1) r k) = pos m c (ix3 b ⟨it.val * 512 + r.val, by omega⟩ k) := by
  obtain ⟨e00, e01, e02, -⟩ := idx_facts t
  show V m c main_arg0 (((cfg0.win 0).blk t).view.emb (ix3 (0 : Fin 1) r k)) = _
  rw [V_main_arg0]
  refine congrArg (pos m c) (funext fun a => Fin.ext ?_)
  match a with
  | ⟨0, _⟩ => show win0_0.index t (0 : Fin 3) * 1 + 1 * 0 = b.val; omega
  | ⟨1, _⟩ => show win0_0.index t (1 : Fin 3) * 512 + 1 * r.val = it.val * 512 + r.val; omega
  | ⟨2, _⟩ => show win0_0.index t (2 : Fin 3) * 3 + 1 * k.val = k.val; omega

/-- The transposed block at point t: coordinate k of atom j. -/
theorem iblk_transposed (c : Dev nD) (t : Fin cfg0.N) (b : Fin 8)
    (hb : win0_2.index t (0 : Fin 3) = b.val) (k : Fin 3) (j : Fin 2048) :
    iblk m c 1 t (ix3 (0 : Fin 1) k j) = pos m c (ix3 b j k) := by
  obtain ⟨-, -, -, e10, e11, e12, -⟩ := idx_facts t
  show (V m c main_v0 : S8x3x2048.Idx → EReal) (((cfg0.win 1).blk t).view.emb (ix3 (0 : Fin 1) k j)) = _
  rw [← V_transposed_apply m c b k j]
  refine congrArg (V m c main_v0 : S8x3x2048.Idx → EReal) (funext fun a => Fin.ext ?_)
  match a with
  | ⟨0, _⟩ => show win0_1.index t (0 : Fin 3) * 1 + 1 * 0 = b.val; omega
  | ⟨1, _⟩ => show win0_1.index t (1 : Fin 3) * 3 + 1 * k.val = k.val; omega
  | ⟨2, _⟩ => show win0_1.index t (2 : Fin 3) * 2048 + 1 * j.val = j.val; omega

/-! ## The body's values are the whole-array functions' -/

/-- With the blocks read off the positions, the body's squared distance at (r, j) is that of atoms 512·it + r and j. -/
theorem blockDist_eq (p : Pos.Idx → EReal) (x0 : Vec Ideal S1x512x3 .f32) (x1 : Vec Ideal S1x3x2048 .f32)
    (b : Fin 8) (i j : Fin 2048) (r : Fin 512)
    (h0 : ∀ k : Fin 3, x0 (ix3 (0 : Fin 1) r k) = p (ix3 b i k))
    (h1 : ∀ k : Fin 3, x1 (ix3 (0 : Fin 1) k j) = p (ix3 b j k)) :
    blockDist x0 x1 r j = dist p b i j := by
  unfold blockDist PairSpec.dist
  rw [h0, h0, h0, h1, h1, h1]

/-- And its bit is the neighbour bit. -/
theorem blockBit_eq (p : Pos.Idx → EReal) (g : grid0.Coords) (x0 : Vec Ideal S1x512x3 .f32) (x1 : Vec Ideal S1x3x2048 .f32)
    (b : Fin 8) (i j : Fin 2048) (r : Fin 512) (hi : (g 1).val * 512 + r.val = i.val)
    (h0 : ∀ k : Fin 3, x0 (ix3 (0 : Fin 1) r k) = p (ix3 b i k))
    (h1 : ∀ k : Fin 3, x1 (ix3 (0 : Fin 1) k j) = p (ix3 b j k)) :
    blockBit g x0 x1 r j = near p b i j := by
  unfold blockBit near
  rw [blockDist_eq p x0 x1 b i j r h0 h1, hi]

/-! ## What each point writes back -/

/-- An index of a result array is in point t's block iff each coordinate is in the block's range on its axis. -/
theorem mem_blk2 (t : Fin cfg0.N) (i : S8x2048x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v1_0).slice (win0_2.rect t)).set ↔ _
  rw [View.set_slice_whole, Rect.mem_set_unit]
  exact Iff.rfl

theorem mem_blk3 (t : Fin cfg0.N) (i : S8x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v1_1).slice (win0_3.rect t)).set ↔ _
  rw [View.set_slice_whole, Rect.mem_set_unit]
  exact Iff.rfl

/-- Point t writes back block t of the masked squared distances. -/
theorem flushed_dist (c : Dev nD) (t : Fin cfg0.N) :
    (dats m 0 c).flushed 2 t = ((cfg0.win 2).blk t).view.read (Elt Ideal) (maskedDist (pos m c)) := by
  show (cfg0.win 2).cut (grid0.coords t) ((dats m 0 c).after 2 t) = _
  rw [after0_2]
  obtain ⟨-, -, -, -, -, -, -, -, -, e22, lt0, lt1, eg⟩ := idx_facts t
  funext y
  obtain ⟨u, r, j, rfl⟩ : ∃ (u : Fin 1) (r : Fin 512) (j : Fin 2048), y = ix3 u r j := ⟨y 0, y 1, y 2, eq_ix3 y⟩
  show out0_2 (grid0.coords t) (iblk m c 0 t) (iblk m c 1 t) (ix3 u r j)
    = maskedDist (pos m c) (((cfg0.win 2).blk t).view.emb (ix3 u r j))
  refine (out_dist (grid0.coords t) (iblk m c 0 t) (iblk m c 1 t) u r j).trans ?_
  have hu : u.val = 0 := by omega
  have hemb : ((cfg0.win 2).blk t).view.emb (ix3 u r j)
      = ix3 (⟨win0_2.index t (0 : Fin 3), lt0⟩ : Fin 8) (⟨win0_2.index t (1 : Fin 3) * 512 + r.val, by omega⟩ : Fin 2048) j := by
    funext a; apply Fin.ext
    match a with
    | ⟨0, _⟩ => show win0_2.index t (0 : Fin 3) * 1 + 1 * u.val = win0_2.index t (0 : Fin 3); omega
    | ⟨1, _⟩ => show win0_2.index t (1 : Fin 3) * 512 + 1 * r.val = win0_2.index t (1 : Fin 3) * 512 + r.val; omega
    | ⟨2, _⟩ => show win0_2.index t (2 : Fin 3) * 2048 + 1 * j.val = j.val; omega
  rw [hemb, maskedDist_ix3]
  have h0 := fun k : Fin 3 => iblk_pos m c t ⟨win0_2.index t (0 : Fin 3), lt0⟩ ⟨win0_2.index t (1 : Fin 3), lt1⟩ rfl rfl r k
  have h1 := fun k : Fin 3 => iblk_transposed m c t ⟨win0_2.index t (0 : Fin 3), lt0⟩ rfl k j
  rw [blockBit_eq (pos m c) (grid0.coords t) (iblk m c 0 t) (iblk m c 1 t) ⟨win0_2.index t (0 : Fin 3), lt0⟩
      ⟨win0_2.index t (1 : Fin 3) * 512 + r.val, by omega⟩ j r (by show (grid0.coords t 1).val * 512 + r.val = _; rw [eg]) h0 h1,
    blockDist_eq (pos m c) (iblk m c 0 t) (iblk m c 1 t) ⟨win0_2.index t (0 : Fin 3), lt0⟩
      ⟨win0_2.index t (1 : Fin 3) * 512 + r.val, by omega⟩ j r h0 h1]

/-- The neighbour bits, each widened to a 32-bit word: what the second output array holds. -/
def nearWords (p : Pos.Idx → EReal) : Pairs.Idx → BitVec 32 := fun q => (nearMask p q).setWidth 32

/-- Point t writes back block t of the widened neighbour bits. -/
theorem flushed_bit (c : Dev nD) (t : Fin cfg0.N) :
    (dats m 0 c).flushed 3 t = ((cfg0.win 3).blk t).view.read (Elt Ideal) (nearWords (pos m c)) := by
  show (cfg0.win 3).cut (grid0.coords t) ((dats m 0 c).after 3 t) = _
  rw [after0_3]
  obtain ⟨-, -, -, -, -, -, e30, e31, e32, e22, lt0, lt1, eg⟩ := idx_facts t
  funext y
  obtain ⟨u, r, j, rfl⟩ : ∃ (u : Fin 1) (r : Fin 512) (j : Fin 2048), y = ix3 u r j := ⟨y 0, y 1, y 2, eq_ix3 y⟩
  show out0_3 (grid0.coords t) (iblk m c 0 t) (iblk m c 1 t) (ix3 u r j)
    = nearWords (pos m c) (((cfg0.win 3).blk t).view.emb (ix3 u r j))
  refine (out_bit (grid0.coords t) (iblk m c 0 t) (iblk m c 1 t) u r j).trans ?_
  have hu : u.val = 0 := by omega
  have hemb : ((cfg0.win 3).blk t).view.emb (ix3 u r j)
      = ix3 (⟨win0_2.index t (0 : Fin 3), lt0⟩ : Fin 8) (⟨win0_2.index t (1 : Fin 3) * 512 + r.val, by omega⟩ : Fin 2048) j := by
    funext a; apply Fin.ext
    match a with
    | ⟨0, _⟩ => show win0_3.index t (0 : Fin 3) * 1 + 1 * u.val = win0_2.index t (0 : Fin 3); omega
    | ⟨1, _⟩ => show win0_3.index t (1 : Fin 3) * 512 + 1 * r.val = win0_2.index t (1 : Fin 3) * 512 + r.val; omega
    | ⟨2, _⟩ => show win0_3.index t (2 : Fin 3) * 2048 + 1 * j.val = j.val; omega
  rw [hemb]
  have h0 := fun k : Fin 3 => iblk_pos m c t ⟨win0_2.index t (0 : Fin 3), lt0⟩ ⟨win0_2.index t (1 : Fin 3), lt1⟩ rfl rfl r k
  have h1 := fun k : Fin 3 => iblk_transposed m c t ⟨win0_2.index t (0 : Fin 3), lt0⟩ rfl k j
  rw [blockBit_eq (pos m c) (grid0.coords t) (iblk m c 0 t) (iblk m c 1 t) ⟨win0_2.index t (0 : Fin 3), lt0⟩
      ⟨win0_2.index t (1 : Fin 3) * 512 + r.val, by omega⟩ j r (by show (grid0.coords t 1).val * 512 + r.val = _; rw [eg]) h0 h1]
  rfl

/-! ## The blocks tile the arrays -/

/-- Row i of system b is in the block of the point (b, i / 512). -/
theorem cover2 (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, q0, q1⟩ := idx_onto ⟨(i 0).val, hi0⟩ ⟨(i 1).val / 512, by omega⟩
  have q0' : win0_2.index t (0 : Fin 3) = (i 0).val := q0
  have q1' : win0_2.index t (1 : Fin 3) = (i 1).val / 512 := q1
  obtain ⟨-, -, -, -, -, -, -, -, -, e22, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

theorem cover3 (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, q0, q1⟩ := idx_onto ⟨(i 0).val, hi0⟩ ⟨(i 1).val / 512, by omega⟩
  have q0' : win0_2.index t (0 : Fin 3) = (i 0).val := q0
  have q1' : win0_2.index t (1 : Fin 3) = (i 1).val / 512 := q1
  obtain ⟨-, -, -, -, -, -, e30, e31, e32, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-! ## The arrays after the region -/

/-- The first output array ends holding the masked squared distances. -/
theorem final_dist (c : Dev nD) : (dats m 0 c).arrAt 2 cfg0.N = maskedDist (pos m c) :=
  (dats m 0 c).arrAt_eq_of_cover 2 (maskedDist (pos m c)) (fun t _ => flushed_dist m c t) cover2

/-- The second output array ends holding the widened neighbour bits. -/
theorem final_words (c : Dev nD) : (dats m 0 c).arrAt 3 cfg0.N = nearWords (pos m c) :=
  (dats m 0 c).arrAt_eq_of_cover 3 (nearWords (pos m c)) (fun t _ => flushed_bit m c t) cover3

/-! ## The lines after the region -/

/-- The words compared with zero: the neighbour bits. -/
theorem tail_bits (c : Dev nD) :
    Pipeline.afterTail₀ cfgs (dats m) 0 (V0 m) [hostOps1] c main_v4 = nearMask (pos m c) := by
  have hw : Pipeline.withArrays spec0 c (V0 m c) (fun w => (dats m 0 c).arrAt w cfg0.N) (Proc.devRef .tc main_v1_1)
      = nearWords (pos m c) :=
    (Pipeline.withArrays_arr spec0 launch0.win.arr_inj c (V0 m c) (fun w => (dats m 0 c).arrAt w cfg0.N) 3).trans (final_words m c)
  unfold Pipeline.afterTail₀
  show StableHlo.after hostOps1 _ (Proc.devRef .tc main_v4) = _
  after_results
  rw [hw]
  funext q
  exact widen_ne_zero _

/-! ## The run -/

/-- Every weakly fair execution of the kernel's program ends with the first result at the masked squared distances of the
    positions, the second at their neighbour bits, and the positions unchanged. -/
theorem run : θ_run defs (onTc (τ := τ) (main (F := Ideal))) ⟨m, fun _ => 0, ρ⟩ fun r => ∀ c : Dev nD,
      r.2.mem ((c : Thread nD τ).loc main_v1_0) = maskedDist (pos m c)
      ∧ r.2.mem ((c : Thread nD τ).loc main_v4) = nearMask (pos m c)
      ∧ r.2.mem ((c : Thread nD τ).loc main_arg0) = m ((c : Thread nD τ).loc main_arg0) :=
  (θ_run defs _ _).mono (fun r h c => ⟨((h c).1 2).trans (final_dist m c),
      ((h c).2 main_v4 (Pipeline.mem_restRefs_of main_v4 rfl (by decide))).trans (tail_bits m c),
      ((h c).1 0).trans (((dats m 0 c).arrAt_in 0 rfl _).trans ((A_eq m c 0).trans (V_main_arg0 m c)))⟩)
    (run_main m ρ)

end Cert.KernelIdeal.Pairs

end
-- ==== Proof.lean ====
/-
  All-pairs squared distances with a cutoff, tiled by rows, against the plain array formula.

  The positions p have shape [8, 2048, 3]: 8 systems of 2048 atoms. Both programs return, for every system b and every
  pair of atoms (i, j), the squared distance d(b,i,j) = Σ_k (p(b,i,k) - p(b,j,k))² where the pair is a neighbour pair
  (d < 25 and i ≠ j) and 0 elsewhere, and the neighbour bit itself.

  The kernel works on a grid of 8 × 4 points; the point (b, it) takes the 512 atoms i = 512·it … 512·it + 511 of system
  b as columns of coordinates and all atoms j of the system as rows of coordinates (from the positions transposed
  beforehand), forms (x_i - x_j)² + (y_i - y_j)² + (z_i - z_j)² by broadcasting, tests the diagonal by comparing the
  column counter shifted back by 512·it with the row counter, and stores the masked distances and the bits (as words,
  turned back into bits by a comparison with zero after the call). The reference broadcasts p against itself into
  [8, 2048, 2048, 3], squares, sums the last axis from zero, and tests the diagonal by comparing two counters.

  On the extended reals the two agree entry by entry: the kernel's (a + b) + c and the reference's 0 + (a + b + c) are
  the same sum (PairSpec.zero_add_sum3: only 0 + x = x is used, so the precondition is never opened), the literals 25.0
  and 0.0 are the same words on both sides and are never evaluated, and the two diagonal tests are both the bit i ≠ j
  (PairSpec.shifted_counters_ne, PairSpec.not_counters_eq: arithmetic of 32-bit words below 2048).

  The modules: PairSpec (the two results as functions of p, and the laws above), RefPairs (the reference computes them),
  KernelBlock (what the kernel's body stores, at an index of its block), KernelPairs (block t of the results is what
  point t writes back, the 32 blocks tile the arrays, the lines after the call, the kernel's run), and the three frames
  and the two claims below. The kernel's frames are FrameKernel and FrameKernelIdeal.
-/
import proofs.«182184_j455266533928_2_alg».proof.Defs
import proofs.«182184_j455266533928_2_alg».proof.Proof.Gen.Kernel
import proofs.«182184_j455266533928_2_alg».proof.Proof.Gen.Kernel.Skeleton
import proofs.«182184_j455266533928_2_alg».proof.Proof.Gen.Kernel.Launch
import proofs.«182184_j455266533928_2_alg».proof.Proof.Gen.Kernel.Points
import proofs.«182184_j455266533928_2_alg».proof.Proof.FrameKernel
import proofs.«182184_j455266533928_2_alg».proof.Proof.Gen.KernelIdeal
import proofs.«182184_j455266533928_2_alg».proof.Proof.Gen.KernelIdeal.Skeleton
import proofs.«182184_j455266533928_2_alg».proof.Proof.Gen.KernelIdeal.Launch
import proofs.«182184_j455266533928_2_alg».proof.Proof.Gen.KernelIdeal.Points
import proofs.«182184_j455266533928_2_alg».proof.Proof.FrameKernelIdeal
import proofs.«182184_j455266533928_2_alg».proof.Proof.Gen.ReferenceIdeal
import proofs.«182184_j455266533928_2_alg».proof.Proof.Gen.ReferenceIdeal.Run
import proofs.«182184_j455266533928_2_alg».proof.Proof.Gen.ReferenceIdeal.Read
import proofs.«182184_j455266533928_2_alg».proof.Proof.Gen.Pre_finite_inputs
import proofs.«182184_j455266533928_2_alg».proof.Proof.PairSpec
import proofs.«182184_j455266533928_2_alg».proof.Proof.RefPairs
import proofs.«182184_j455266533928_2_alg».proof.Proof.KernelBlock
import proofs.«182184_j455266533928_2_alg».proof.Proof.KernelPairs
import Idealize.ShloMosaic.Adequacy
import Idealize.ShloMosaic.Init

noncomputable section

namespace Cert.Proof

open Idealize.ShloMosaic Idealize.ShloMosaic.TcCoe Idealize.SL.Sem Cert.PairSpec

/-- The word-level kernel runs and leaves the positions as they were. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference is a straight line of array operations: it runs, and its last clause says the positions are unchanged. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the masked squared distances and the neighbour bits of the positions they were given. -/
theorem algebraic : Cert.algebraic_KernelIdeal_ReferenceIdeal := by
  intro m ρ m' ρ' _ hagree
  refine ⟨fun c => maskedDist (Cert.KernelIdeal.Pairs.pos m c), fun c => nearMask (Cert.KernelIdeal.Pairs.pos m c),
    Cert.KernelIdeal.Pairs.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, hagree c]
    exact Cert.ReferenceIdeal.RefValue.masked_eq _
  · rw [(h c).2.1, Cert.ReferenceIdeal.Read.val_main_v17_eq, hagree c]
    exact Cert.ReferenceIdeal.RefValue.near_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
